-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) (main_arg1 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  main_v8
-- ==== Kernel.lean ====
abbrev S16384x1024 : Shape := ⟨2, ![16384, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .f32 = 32 ∨ (Rect.block (s := S16384x1024) S1024x1024.size (cc0_transform_2 i) (hinb0_2 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S_ : Shape := ⟨0, ![]⟩
abbrev S16384 : Shape := ⟨1, ![16384]⟩
abbrev S16384x1 : Shape := ⟨2, ![16384, 1]⟩

abbrev nBuf : Space → Nat
  | .hbm => 17
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1024 : S_.BroadcastsInDim S16384x1024 (![] : Fin 0 → Fin S16384x1024.rank)
  bcast_S16384x1_S16384x1024_0_1 : S16384x1.BroadcastsInDim S16384x1024 (![0, 1] : Fin 2 → Fin S16384x1024.rank)

variable [Facts₀]

class Facts : Prop extends Facts₀ where

variable [Facts]
-- ==== Proof.Reflection.lean ====
/-
  The Householder reflection of the rows of `z` in the directions given by the rows of `v`, over the extended reals:

      out[r, c] = z[r, c] − (2 · v[r, c]) · (⟨v[r, ·], z[r, ·]⟩ / ⟨v[r, ·], v[r, ·]⟩)

  for two arrays of 1024 columns. An entry depends on its own two entries and on its ROW only: the two inner products run
  over the 1024 columns of row `r`. The quotient is the extended reals' division with its conventions at a zero divisor
  (`Ideal.div`), and the factor two is the value of the f32 word `0x40000000`. The product is grouped as `(2 · v) · q`
  with `q` the quotient, and the function is defined on all extended reals, infinite entries included.
-/
import Idealize.ShloMosaic.PureOps.Ideal.Laws
import Idealize.ShloMosaic.Lib.ValueIdx

noncomputable section

open scoped BigOperators

namespace Cert.Reflection

open Idealize.ShloMosaic Idealize.ShloMosaic.ValueIdx

/-- One entry of a reflected row, from the entry `zi` of `z`, the entry `vi` of `v`, and the row's two inner products
    `vz = ⟨v, z⟩` and `vv = ⟨v, v⟩`: `zi − (2 · vi) · (vz / vv)`. -/
def entry (zi vi vz vv : EReal) : EReal :=
  zi - (Ideal.ofBits .f32 0x40000000#32 * vi) * Ideal.div vz vv

/-- The inner product of row `r` of `a` with row `r` of `b`, for arrays of `R` rows and 1024 columns. -/
def rowDot {R : Nat} (a b : (⟨2, ![R, 1024]⟩ : Shape).Idx → EReal) (r : Fin R) : EReal :=
  ∑ k : Fin 1024, a (ix2 r k) * b (ix2 r k)

/-- The reflection of an array of `R` rows, entry by entry: entry `(r, c)` from the two entries at `(r, c)` and the two
    inner products of row `r`. -/
def reflect {R : Nat} (v z : (⟨2, ![R, 1024]⟩ : Shape).Idx → EReal) : (⟨2, ![R, 1024]⟩ : Shape).Idx → EReal :=
  fun i => entry (z i) (v i) (rowDot v z (i 0)) (rowDot v v (i 0))

/-- The reflection at explicit coordinates. -/
theorem reflect_ix2 {R : Nat} (v z : (⟨2, ![R, 1024]⟩ : Shape).Idx → EReal) (r : Fin R) (c : Fin 1024) :
    reflect v z (ix2 r c) = entry (z (ix2 r c)) (v (ix2 r c)) (rowDot v z r) (rowDot v v r) := rfl

/-- An entry of the reflection depends on its own row only: if `vb` and `zb` hold, at each row `p`, the rows `ρ p` of `v` and
    `z` — whole rows, all 1024 columns — then reflecting `vb`, `zb` gives at `(p, q)` the reflection of `v`, `z` at `(ρ p, q)`. -/
theorem reflect_rows {R R' : Nat} (v z : (⟨2, ![R, 1024]⟩ : Shape).Idx → EReal)
    (vb zb : (⟨2, ![R', 1024]⟩ : Shape).Idx → EReal) (ρ : Fin R' → Fin R)
    (hv : ∀ (p : Fin R') (q : Fin 1024), vb (ix2 p q) = v (ix2 (ρ p) q))
    (hz : ∀ (p : Fin R') (q : Fin 1024), zb (ix2 p q) = z (ix2 (ρ p) q)) (p : Fin R') (q : Fin 1024) :
    reflect vb zb (ix2 p q) = reflect v z (ix2 (ρ p) q) := by
  rw [reflect_ix2, reflect_ix2]
  unfold rowDot
  simp only [hv, hz]

end Cert.Reflection

end
-- ==== Proof.BlockReflection.lean ====
/-
  One grid point of the kernel works on a block of 1024 whole rows: it loads the block of `v` and the block of `z`, sums
  `v · z` and `v · v` over the 1024 columns of each row, divides the two sums, and stores `z − (2 · v) · quotient`. A block
  holds ALL the columns of its rows, so the sums a block takes are its rows' full inner products: what the block ends
  holding is the reflection of the block's own rows, `Reflection.reflect` at 1024 rows. The lane sum over the second axis,
  read at row `p`, is the sum over `k` of the operand at `(p, k)`.
-/
import proofs.«168811_j43250320670768_2_alg».proof.Proof.Gen.KernelIdeal.Value
import proofs.«168811_j43250320670768_2_alg».proof.Proof.Reflection

noncomputable section

open scoped BigOperators

namespace Cert.KernelIdeal.Reflection

open Cert.KernelIdeal Cert.KernelIdeal.Gen Cert.KernelIdeal.Value Idealize.ShloMosaic Idealize.ShloMosaic.ValueIdx
  Cert.Reflection

/-- The sum over the columns of the entrywise product of two blocks, read at row `p`: the row's inner product. -/
theorem laneSum_mul (a b : FVec Ideal S1024x1024 .f32) (p : Fin 1024) (j : S1024.Idx) (hj : j = ix1 p) :
    multiReduction (F := Ideal) .add [1] S1024 (mulf a b) 0x00000000#32 reduces_S1024x1024_S1024 (.inl rfl) rfl j
      = rowDot a b p := by
  subst hj
  refine (Ideal.multiReduction_add_single (mulf a b) 0x00000000#32 reduces_S1024x1024_S1024 (.inl rfl) rfl (ix1 p)).trans ?_
  unfold rowDot
  refine Finset.sum_congr rfl fun k _ => ?_
  have e : reduces_S1024x1024_S1024.lift (ix1 p) k = ix2 p k :=
    funext fun a => Fin.ext (by match a with | ⟨0, _⟩ => rfl | ⟨1, _⟩ => rfl)
  rw [e]
  rfl

/-- What a point leaves in its output block, entry `(p, q)`: the reflection of the block's rows, from the block `zb` of `z`
    and the block `vb` of `v`. -/
theorem block_eq (zb vb : Vec Ideal S1024x1024 .f32) (p q : Fin 1024) :
    E2 (F := Ideal) zb vb (ix2 p q) = reflect (R := 1024) vb zb (ix2 p q) := by
  rw [reflect_ix2]
  have e0 : ix2_0 (ix2 p q) = ix2 p q := funext fun a => Fin.ext (by match a with | ⟨0, _⟩ => rfl | ⟨1, _⟩ => rfl)
  have e1 : ix2_1 (ix2 p q) = ix2 p q := funext fun a => Fin.ext (by match a with | ⟨0, _⟩ => rfl | ⟨1, _⟩ => rfl)
  have e2 : ix2_2 (ix2 p q) = ix1 p := funext fun a => Fin.ext (by match a with | ⟨0, _⟩ => rfl)
  have e3 : ix2_3 (ix2 p q) = ix1 p := funext fun a => Fin.ext (by match a with | ⟨0, _⟩ => rfl)
  show FloatOps.subf (zb (ix2_0 (ix2 p q))) (FloatOps.mulf (FloatOps.mulf (Scalar.ofBits .f32 0x40000000#32) (vb (ix2_1 (ix2 p q))))
      (FloatOps.divf (multiReduction (F := Ideal) .add [1] S1024 (mulf vb zb) 0x00000000#32 reduces_S1024x1024_S1024 (.inl rfl) rfl (ix2_2 (ix2 p q)))
        (multiReduction (F := Ideal) .add [1] S1024 (mulf vb vb) 0x00000000#32 reduces_S1024x1024_S1024 (.inl rfl) rfl (ix2_3 (ix2 p q))))) = _
  rw [laneSum_mul vb zb p _ e2, laneSum_mul vb vb p _ e3, e0, e1]
  rfl

end Cert.KernelIdeal.Reflection

end
-- ==== Proof.KernelReflection.lean ====
/-
  The kernel's grid has 16 points; point `t` fetches rows `1024·t … 1024·t + 1023` of `v` and of `z`, all 1024 columns, and
  writes the same rows of the result. A block of whole rows reflected by itself is the same rows of the whole array's
  reflection (`Reflection.reflect_rows`: an entry depends on its own row only), so what point `t` writes back is block `t`
  of `Reflection.reflect v z`; the 16 blocks cover the 16384 rows (row `r` lies in block `r / 1024`), so the result array
  ends holding `Reflection.reflect v z`.
-/
import proofs.«168811_j43250320670768_2_alg».proof.Proof.BlockReflection
import Idealize.ShloMosaic.Lib.Pipeline.Value
import Idealize.ShloMosaic.Lib.ValueIdx

noncomputable section

namespace Cert.KernelIdeal.Reflection

open Cert.KernelIdeal Cert.KernelIdeal.Gen Cert.KernelIdeal.Value Idealize.ShloMosaic Idealize.ShloMosaic.TcCoe
  Idealize.SL.Sem Idealize.ShloMosaic.ValueIdx Cert.Reflection
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl

/-- The three windows' block indices at a point, decided over the 16 points: the inputs' blocks move with the output's, the
    column block is always the first, and the row block stays below 16. -/
theorem index_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 15 :=
  (by decide +kernel : ∀ t : Fin grid0.N, _)

/-- Every one of the 16 row blocks is some point's. -/
theorem index_onto : ∀ b : Fin 16, ∃ t : Fin cfg0.N, win0_2.index t = ![b.val, 0] :=
  (by decide +kernel : ∀ b : Fin 16, ∃ t : Fin grid0.N, win0_2.index t = ![b.val, 0])

/-- The row of the array that row `p` of point `t`'s blocks is. -/
def rowAt (t : Fin cfg0.N) (p : Fin 1024) : Fin 16384 :=
  ⟨win0_2.index t (0 : Fin 2) * 1024 + p.val, by
    have h := (index_facts t).2.2.2.2.2
    have hp : p.val < 1024 := p.isLt
    omega⟩

/-- Entry `(p, q)` of point `t`'s block of `v` is entry `(rowAt t p, q)` of `v`. -/
theorem vblock_apply (c : Dev nD) (t : Fin cfg0.N) (p q : Fin 1024) :
    iblk m c 0 t (ix2 p q) = V m c main_arg0 (ix2 (rowAt t p) q) := by
  obtain ⟨e0, e1, e2, e3, e4, e5⟩ := index_facts t
  show V m c main_arg0 (((cfg0.win 0).blk t).view.emb (ix2 p q)) = V m c main_arg0 (ix2 (rowAt t p) q)
  refine congrArg (V m c main_arg0) (funext fun a => Fin.ext ?_)
  match a with
  | ⟨0, _⟩ => show win0_0.index t (0 : Fin 2) * 1024 + 1 * p.val = win0_2.index t (0 : Fin 2) * 1024 + p.val; omega
  | ⟨1, _⟩ => show win0_0.index t (1 : Fin 2) * 1024 + 1 * q.val = q.val; omega

/-- Entry `(p, q)` of point `t`'s block of `z` is entry `(rowAt t p, q)` of `z`. -/
theorem zblock_apply (c : Dev nD) (t : Fin cfg0.N) (p q : Fin 1024) :
    iblk m c 1 t (ix2 p q) = V m c main_arg1 (ix2 (rowAt t p) q) := by
  obtain ⟨e0, e1, e2, e3, e4, e5⟩ := index_facts t
  show V m c main_arg1 (((cfg0.win 1).blk t).view.emb (ix2 p q)) = V m c main_arg1 (ix2 (rowAt t p) q)
  refine congrArg (V m c main_arg1) (funext fun a => Fin.ext ?_)
  match a with
  | ⟨0, _⟩ => show win0_1.index t (0 : Fin 2) * 1024 + 1 * p.val = win0_2.index t (0 : Fin 2) * 1024 + p.val; omega
  | ⟨1, _⟩ => show win0_1.index t (1 : Fin 2) * 1024 + 1 * q.val = q.val; omega

/-- Entry `(p, q)` of point `t`'s output block sits at `(rowAt t p, q)` in the result array. -/
theorem oblock_emb (t : Fin cfg0.N) (p q : Fin 1024) :
    ((cfg0.win 2).blk t).view.emb (ix2 p q) = ix2 (rowAt t p) q := by
  obtain ⟨e0, e1, e2, e3, e4, e5⟩ := index_facts t
  refine funext fun a => Fin.ext ?_
  match a with
  | ⟨0, _⟩ => show win0_2.index t (0 : Fin 2) * 1024 + 1 * p.val = win0_2.index t (0 : Fin 2) * 1024 + p.val; omega
  | ⟨1, _⟩ => show win0_2.index t (1 : Fin 2) * 1024 + 1 * q.val = q.val; omega

/-- What point `t` writes back is block `t` of the reflection of the argument arrays. -/
theorem flushed_eq (c : Dev nD) (t : Fin cfg0.N) :
    (dats m 0 c).flushed 2 t
      = ((cfg0.win 2).blk t).view.read (Elt Ideal) (reflect (V m c main_arg0) (V m c main_arg1)) := by
  rw [Value.flushed2]
  unfold out0_2
  simp only [View.ld_unit_zero (S := S1024x1024) zero2]
  funext j
  obtain ⟨p, q, rfl⟩ : ∃ (p q : Fin 1024), j = ix2 p q := ⟨j 0, j 1, eq_ix2 j⟩
  show View.canon ([⟨r0_0, k0_pay1 (iblk m c 0 t) (iblk m c 1 t)⟩] : List (View.Piece (Elt Ideal) S1024x1024 .f32)) (ix2 p q)
    = reflect (V m c main_arg0) (V m c main_arg1) (((cfg0.win 2).blk t).view.emb (ix2 p q))
  refine (canon2_eq (F := Ideal) (iblk m c 1 t) (iblk m c 0 t) (ix2 p q)).trans ?_
  refine (block_eq (iblk m c 1 t) (iblk m c 0 t) p q).trans ?_
  rw [oblock_emb t p q]
  exact reflect_rows (V m c main_arg0) (V m c main_arg1) (iblk m c 0 t) (iblk m c 1 t) (rowAt t)
    (fun p q => vblock_apply m c t p q) (fun p q => zblock_apply m c t p q) p q

/-- An index of the result array is in point `t`'s block iff each coordinate is in the block's range on its axis. -/
theorem mem_block (t : Fin cfg0.N) (i : S16384x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- Every index of the result array is in some point's block: row `r` is in block `r / 1024`. -/
theorem covered (i : S16384x1024.Idx) :
    ∃ t : Fin cfg0.N, (cfg0.win 2).flush t = true ∧ i ∈ ((cfg0.win 2).blk t).view.set := by
  have hi0 : (i 0).val < 16384 := (i 0).isLt
  have hi1 : (i 1).val < 1024 := (i 1).isLt
  obtain ⟨t, ht⟩ := index_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array after the run is the reflection of the argument arrays. -/
theorem final (c : Dev nD) :
    (dats m 0 c).arrAt 2 cfg0.N
      = reflect (m ((c : Thread nD τ).loc main_arg0)) (m ((c : Thread nD τ).loc main_arg1)) :=
  (dats m 0 c).arrAt_eq_of_cover 2 _ (fun t _ => flushed_eq m c t) covered

/-- Every weakly fair execution of the kernel terminates with the result array at the reflection of the arguments and the
    arguments unchanged. -/
theorem run : θ_run defs (onTc (τ := τ) (main (F := Ideal))) ⟨m, fun _ => 0, ρ⟩ fun r => ∀ c : Dev nD,
      r.2.mem ((c : Thread nD τ).loc main_v0)
        = reflect (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Reflection

end
-- ==== Proof.ReferenceReflection.lean ====
/-
  The reference computes the reflection of the whole [16384, 1024] array at once: it multiplies `v` by `z` and `v` by
  itself entry by entry, sums each product over the columns from the initial value zero, keeps the sums as columns
  [16384, 1], divides them, spreads the quotient over the 1024 columns of its row, and subtracts `(2 · v)` times it from
  `z`. Read at an entry `i`, every layout step only forgets or restores the column coordinate, so both sums are over row
  `i 0`: the result is `Reflection.reflect v z`. The zero initial value is the additive unit of the extended reals.
-/
import proofs.«168811_j43250320670768_2_alg».proof.Proof.Gen.ReferenceIdeal.Read
import proofs.«168811_j43250320670768_2_alg».proof.Proof.Reflection

noncomputable section

open scoped BigOperators

namespace Cert.ReferenceIdeal.Reflection

open Cert.ReferenceIdeal Cert.ReferenceIdeal.Read Idealize.ShloMosaic Idealize.ShloMosaic.ValueIdx Cert.Reflection

/-- The entry of row `i 0` and column `k`, as the two column sums reach it through the layout steps. -/
theorem row_v1 (i : S16384x1024.Idx) (k : Fin 1024) :
    idx_main_v1 (idx_main_v2 (idx_main_v9 i)) k = ix2 (i 0) k :=
  funext fun a => Fin.ext (by match a with | ⟨0, _⟩ => rfl | ⟨1, _⟩ => rfl)

theorem row_v4 (i : S16384x1024.Idx) (k : Fin 1024) :
    idx_main_v4 (idx_main_v5 (idx_main_v9 i)) k = ix2 (i 0) k :=
  funext fun a => Fin.ext (by match a with | ⟨0, _⟩ => rfl | ⟨1, _⟩ => rfl)

/-- The reference's result, as a function of its two argument arrays, is the reflection. -/
theorem result_eq (v z : FVec Ideal S16384x1024 .f32) :
    val_main_v11 (F := Ideal) v z = reflect v z := by
  funext i
  rw [val_main_v11_apply, val_main_v10_apply, val_main_v7_apply, val_main_v6_apply, val_main_cst_1_apply,
    val_main_v9_apply, val_main_v8_apply, val_main_v2_apply, val_main_v5_apply, val_main_v1_apply, val_main_v4_apply]
  simp only [val_main_cst_apply, val_main_cst_0_apply, val_main_v0_apply, val_main_v3_apply, row_v1, row_v4,
    Ideal.ofBits_def, Ideal.subf_def, Ideal.mulf_def, Ideal.hostDivf_def, Ideal.ofBits_zero_f32, zero_add]
  rfl

end Cert.ReferenceIdeal.Reflection

end
-- ==== Proof.lean ====
/-
  A Householder reflection, row by row, of a [16384, 1024] array `z` in the directions of the rows of `v`:

      out[r, c] = z[r, c] − (2 · v[r, c]) · (⟨v[r, ·], z[r, ·]⟩ / ⟨v[r, ·], v[r, ·]⟩).

  The kernel computes it in 16 blocks of 1024 whole rows, the reference on the whole array at once. Over the extended
  reals both are the one function `Reflection.reflect v z`: an entry depends on its own row only, a block holds all the
  columns of its rows, so a block reflected by itself is the same rows of the whole array's reflection, and the blocks
  cover the rows. The lane sum in the kernel and the column sum in the reference are the same sum over the 1024 columns
  (the reference's starts from the additive unit), the two divisions are the same extended-real division, and the product
  is grouped the same way in both, so the two results agree entry by entry for all inputs, infinite entries included.
  The idealized kernel is the kernel's own text read over the extended reals: no operation was rewritten.
-/
import proofs.«168811_j43250320670768_2_alg».proof.Defs
import proofs.«168811_j43250320670768_2_alg».proof.Proof.Gen.Kernel
import proofs.«168811_j43250320670768_2_alg».proof.Proof.Gen.Kernel.Skeleton
import proofs.«168811_j43250320670768_2_alg».proof.Proof.Gen.Kernel.Launch
import proofs.«168811_j43250320670768_2_alg».proof.Proof.Gen.Kernel.Points
import proofs.«168811_j43250320670768_2_alg».proof.Proof.Gen.Kernel.Frame
import proofs.«168811_j43250320670768_2_alg».proof.Proof.Gen.KernelIdeal
import proofs.«168811_j43250320670768_2_alg».proof.Proof.Gen.KernelIdeal.Skeleton
import proofs.«168811_j43250320670768_2_alg».proof.Proof.Gen.KernelIdeal.Launch
import proofs.«168811_j43250320670768_2_alg».proof.Proof.Gen.KernelIdeal.Points
import proofs.«168811_j43250320670768_2_alg».proof.Proof.Gen.KernelIdeal.Frame
import proofs.«168811_j43250320670768_2_alg».proof.Proof.Gen.ReferenceIdeal
import proofs.«168811_j43250320670768_2_alg».proof.Proof.Gen.Pre_finite_inputs
import proofs.«168811_j43250320670768_2_alg».proof.Proof.Gen.KernelIdeal.Value
import proofs.«168811_j43250320670768_2_alg».proof.Proof.Gen.ReferenceIdeal.Run
import proofs.«168811_j43250320670768_2_alg».proof.Proof.Gen.ReferenceIdeal.Read
import proofs.«168811_j43250320670768_2_alg».proof.Proof.KernelReflection
import proofs.«168811_j43250320670768_2_alg».proof.Proof.ReferenceReflection
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From arguments that agree, the kernel's result array and the reference's both end at the reflection of the arguments. -/
theorem algebraic : Cert.algebraic_KernelIdeal_ReferenceIdeal := by
  intro m ρ m' ρ' _ hagree
  refine ⟨_, Cert.KernelIdeal.Reflection.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v11_eq _ _).trans (Cert.ReferenceIdeal.Reflection.result_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
